-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x256 : Shape := ⟨2, ![1024, 256]⟩
abbrev S256x4096 : Shape := ⟨2, ![256, 4096]⟩
abbrev S1024x4096 : Shape := ⟨2, ![1024, 4096]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S256x4096, .bf16⟩
  | .local _ .vmem, ⟨3, _⟩ => ⟨S256x4096, .bf16⟩
  | .local _ .vmem, ⟨4, _⟩ => ⟨S1024x4096, .f32⟩
  | .local _ .vmem, ⟨5, _⟩ => ⟨S1024x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S1024x256_S1024x256_0_0 : ∀ a, (![0, 0] : Fin 2 → Nat) a + S1024x256.size a ≤ S1024x256.size a
  h_S1024x256 : 0 < S1024x256.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  dot_S1024x256_S256x4096_S1024x4096_1_0_0_1_n_n_wf : DotDims.WF S1024x256 S256x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S8192x4096.size a
  hwx0_2 : ∀ i : grid0.Coords, EltTy.bits .f32 = 32 ∨ (Rect.block (s := S8192x4096) S1024x4096.size (cc0_transform_2 i) (hinb0_2 i)).WholeWords (EltTy.packing .f32)

variable [Facts₀]

def dot_S1024x256_S256x4096_S1024x4096_1_0_0_1_n_n : DotDims S1024x256 S256x4096 S1024x4096 where
  lhsContracting := [1]
  rhsContracting := [0]
  lhsNonContracting := [0]
  rhsNonContracting := [1]
  lhsBatch := []
  rhsBatch := []
  wf := dot_S1024x256_S256x4096_S1024x4096_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.TileStep.lean ====
/-
  One grid point's arithmetic, at an entry of the output tile.

  At a grid point the body holds a 1024×256 tile `x0` of `x`, a 256×4096 tile `x1` of the sign matrix and the
  1024×4096 output tile `acc` left by the point before. It stores `acc + x0 · x1`, the product taken by the matrix
  unit into a zero accumulator after `x0` is narrowed to bf16. On the extended reals the narrowing is the identity and
  the matrix unit computes the textbook contraction, so at entry `(p, q)` the stored tile is
  `acc (p, q) + ∑ kk < 256, x0 (p, kk) * x1 (kk, q)`. At the first point of a run the tile is first reset to zero.
-/
import proofs.«178585_j45784351375737_2_alg».proof.Proof.Gen.KernelIdeal.Skeleton
import proofs.«178585_j45784351375737_2_alg».proof.Proof.LibPlainDot
import Idealize.ShloMosaic.Lib.Pipeline.Value

noncomputable section

namespace SignMatmul

open Idealize.ShloMosaic Idealize.ShloMosaic.ValueIdx Cert.KernelIdeal Cert.KernelIdeal.Gen

/-- The tile product's dimension numbers are the plain ones: contract the left columns with the right rows. -/
theorem tile_dims : dot_S1024x256_S256x4096_S1024x4096_1_0_0_1_n_n = DotDims.plain 1024 256 4096 := rfl

/-- The reset tile is zero at every entry. -/
theorem reset_tile_apply (p : Fin 1024) (q : Fin 4096) : k0_pay1 (F := Ideal) (ix2 p q) = 0 :=
  Ideal.ofBits_zero_f32

/-- The stored tile at entry `(p, q)`: what the point before left there, plus this point's 256-term partial sum. -/
theorem step_tile_apply (x0 : Vec Ideal S1024x256 .f32) (acc : Vec Ideal S1024x4096 .f32) (x1 : Vec Ideal S256x4096 .bf16)
    (p : Fin 1024) (q : Fin 4096) :
    k0_pay2 x0 acc x1 (ix2 p q) = acc (ix2 p q) + ∑ kk : Fin 256, x0 (ix2 p kk) * x1 (ix2 kk q) := by
  unfold k0_pay2
  simp only [shapeCast_self]
  exact congrArg (acc (ix2 p q) + ·)
    (Gcn.Lib.plain_matmul_zero_apply (M := 1024) (K := 256) (N := 4096) (truncf .bf16 x0 bitsLt_bf16_f32) x1 none p q)

end SignMatmul

end
-- ==== Proof.Blocks.lean ====
/-
  The input tiles of a grid point, as entries of the whole arrays.

  The grid has 8 × 16 points; point `t` works on row block `t / 16` of `x` and on reduction step `t % 16`. Its
  tile of `x` is rows `1024 * (t / 16) …`, columns `256 * (t % 16) …`; its tile of the second operand is rows
  `256 * (t % 16) …` and all 4096 columns. The second operand is not `W` itself: before the grid starts the host
  replaces `W` by its sign (then narrows it to bf16, the identity on the extended reals), so the tile's entries are
  entries of `sign W`.
-/
import proofs.«178585_j45784351375737_2_alg».proof.Proof.Gen.KernelIdeal.Value
import Idealize.ShloMosaic.Lib.ValueIdx
import Idealize.ShloMosaic.Lib.StableHlo.Run

noncomputable section

namespace SignMatmul

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The printed index maps, decided over the 128 grid points: point `t` reads block `(t / 16, t % 16)` of `x` and
    block `(t % 16, 0)` of the sign matrix. -/
theorem idx_in : ∀ t : Fin cfg0.N, win0_0.index t (0 : Fin 2) = t.val / 16 ∧ win0_0.index t (1 : Fin 2) = t.val % 16
    ∧ win0_1.index t (0 : Fin 2) = t.val % 16 ∧ win0_1.index t (1 : Fin 2) = 0 :=
  (by decide +kernel : ∀ t : Fin grid0.N, _)

/-- `x`, the first factor of the product, as a function of an index. -/
abbrev xArr (c : Dev nD) : S8192x4096.Idx → EReal := m ((c : Thread nD τ).loc main_arg0)

/-- `sign W`, the second factor of the product, as a function of an index. -/
abbrev signW (c : Dev nD) : S4096x4096.Idx → EReal :=
  Host.sign (F := Ideal) (s := S4096x4096) (φ := .f32) (m ((c : Thread nD τ).loc main_arg1))

/-- What the grid finds in its second operand: the sign of `W`, entry by entry. -/
theorem second_operand (c : Dev nD) : (V m c main_v1 : S4096x4096.Idx → EReal) = signW m c := by
  dsimp only [Gen.V, Gen.hostOps0]
  after_results
  rfl

/-- Grid point `t`'s tile of `x`. -/
abbrev xTile (c : Dev nD) (t : Fin cfg0.N) : S1024x256.Idx → EReal := iblk m c 0 t

/-- Grid point `t`'s tile of the second operand. -/
abbrev signTile (c : Dev nD) (t : Fin cfg0.N) : S256x4096.Idx → EReal := iblk m c 1 t

/-- An entry of point `t`'s tile of `x` is the entry of `x` at row `1024 * (t / 16) + p`, column `256 * (t % 16) + kk`. -/
theorem x_tile_apply (c : Dev nD) (t : Fin cfg0.N) (p : Fin 1024) (kk : Fin 256) (i : S8192x4096.Idx)
    (h0 : (i 0).val = t.val / 16 * 1024 + p.val) (h1 : (i 1).val = t.val % 16 * 256 + kk.val) :
    xTile m c t (ix2 p kk) = xArr m c i := by
  obtain ⟨e0, e1, -, -⟩ := idx_in t
  refine Eq.trans ?_ (congrFun (V_main_arg0 m c) i)
  show V m c main_arg0 (((cfg0.win 0).blk t).view.emb (ix2 p kk)) = V m c main_arg0 i
  refine congrArg _ (funext fun a => Fin.ext ?_)
  match a with
  | ⟨0, _⟩ => show win0_0.index t (0 : Fin 2) * 1024 + 1 * p.val = (i 0).val; omega
  | ⟨1, _⟩ => show win0_0.index t (1 : Fin 2) * 256 + 1 * kk.val = (i 1).val; omega

/-- An entry of point `t`'s tile of the second operand is the entry of `sign W` at row `256 * (t % 16) + kk`, column `q`. -/
theorem sign_tile_apply (c : Dev nD) (t : Fin cfg0.N) (kk : Fin 256) (q : Fin 4096) (i : S4096x4096.Idx)
    (h0 : (i 0).val = t.val % 16 * 256 + kk.val) (h1 : (i 1).val = q.val) :
    signTile m c t (ix2 kk q) = signW m c i := by
  obtain ⟨-, -, e2, e3⟩ := idx_in t
  refine Eq.trans ?_ (congrFun (second_operand m c) i)
  show V m c main_v1 (((cfg0.win 1).blk t).view.emb (ix2 kk q)) = V m c main_v1 i
  refine congrArg _ (funext fun a => Fin.ext ?_)
  match a with
  | ⟨0, _⟩ => show win0_1.index t (0 : Fin 2) * 256 + 1 * kk.val = (i 0).val; omega
  | ⟨1, _⟩ => show win0_1.index t (1 : Fin 2) * 4096 + 1 * q.val = (i 1).val; omega

end SignMatmul

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.KernelValue.lean ====
/-
  The kernel's result at an entry.

  Output row block `r` (rows `1024 * r …`) is produced by the 16 consecutive grid points `16 * r … 16 * r + 15`:
  the first resets the output tile to zero and adds its partial product, each later one adds its own. So after the
  last of them the tile's entry `(p, q)` is the sum, over the 16 points `s`, of the 256-term partial sums
  `∑ kk, x (1024 * r + p, 256 * s + kk) * sign W (256 * s + kk, q)` — and 16 groups of 256 consecutive coordinates are
  the 4096 coordinates of the contracted axis. Hence the array the kernel leaves holds, at `(P, q)`,
  `∑ k < 4096, x (P, k) * sign W (k, q)`.
-/
import proofs.«178585_j45784351375737_2_alg».proof.Proof.TileStep
import proofs.«178585_j45784351375737_2_alg».proof.Proof.Blocks
import proofs.«178585_j45784351375737_2_alg».proof.Proof.LibGroupedSum

noncomputable section

namespace SignMatmul

open Idealize.ShloMosaic Idealize.ShloMosaic.ValueIdx Idealize.ShloMosaic.TcCoe Idealize.SL.Sem
open Cert.KernelIdeal Cert.KernelIdeal.Gen
open Cert.KernelIdeal.Value (reset2 step2 G2 run2Of loc2Of)
open GroupedSum (group_lt sum_groups)

variable (m : (ℓ : Loc nD τ sig) → Buf (Elt Ideal) ℓ)

/-- Grid point `n`'s addend at entry `i` of the output tile: the 256-term partial sum over the point's two input
    tiles. (Past the grid it is set to zero; those values are never used.) -/
def addend (c : Dev nD) (n : ℕ) (i : S1024x4096.Idx) : EReal :=
  if h : n < cfg0.N then ∑ kk : Fin 256, xTile m c ⟨n, h⟩ (ix2 (i 0) kk) * signTile m c ⟨n, h⟩ (ix2 kk (i 1)) else 0

/-- The first point of a run leaves zero plus its addend. -/
theorem reset_eq (c : Dev nD) (n : ℕ) (h : n < cfg0.N) (i : S1024x4096.Idx) :
    (reset2 m c n h : S1024x4096.Idx → EReal) i = 0 + addend m c n i := by
  obtain ⟨p, q, rfl⟩ : ∃ (p : Fin 1024) (q : Fin 4096), i = ix2 p q := ⟨i 0, i 1, eq_ix2 i⟩
  unfold addend
  rw [dif_pos h]
  refine (step_tile_apply (iblk m c 0 ⟨n, h⟩) (k0_pay1 (F := Ideal)) (iblk m c 1 ⟨n, h⟩) p q).trans ?_
  rw [reset_tile_apply]

/-- A later point of a run adds its addend to what the point before left. -/
theorem step_eq (c : Dev nD) (n : ℕ) (h : n < cfg0.N) (acc : S1024x4096.Idx → EReal) (i : S1024x4096.Idx) :
    (step2 m c n h acc : S1024x4096.Idx → EReal) i = acc i + addend m c n i := by
  obtain ⟨p, q, rfl⟩ : ∃ (p : Fin 1024) (q : Fin 4096), i = ix2 p q := ⟨i 0, i 1, eq_ix2 i⟩
  unfold addend
  rw [dif_pos h]
  exact step_tile_apply (iblk m c 0 ⟨n, h⟩) acc (iblk m c 1 ⟨n, h⟩) p q

/-- The tile after the 16 points of run `r`: the sum of their addends. -/
theorem fold_apply (c : Dev nD) (r : ℕ) (h : 16 * r + 15 < cfg0.N) (i : S1024x4096.Idx) :
    (Pipeline.accAt (reset2 m c) (step2 m c) (16 * r) 15 h : S1024x4096.Idx → EReal) i
      = 0 + ∑ s ∈ Finset.range 16, addend m c (16 * r + s) i :=
  Pipeline.accAt_add_apply (ι := S1024x4096.Idx) (β := EReal) (reset2 m c) (step2 m c) (fun _ => 0) (addend m c) (16 * r) 15
    (fun h i => reset_eq m c _ h i) (fun n h acc i _ _ => step_eq m c n h acc i) 15 le_rfl h i

/-- The addend of point `16 * (P / 1024) + s` at the tile entry holding array entry `(P, q)`: the partial sum over
    the `s`-th group of 256 coordinates of the contracted axis. -/
theorem addend_apply (c : Dev nD) (P : Fin 8192) (q : Fin 4096) (s : Fin 16) (i : S1024x4096.Idx)
    (hi0 : (i 0).val = P.val % 1024) (hi1 : (i 1).val = q.val) :
    addend m c (16 * (P.val / 1024) + s.val) i
      = ∑ kk : Fin 256, xArr m c (ix2 P ⟨s.val * 256 + kk.val, group_lt (K := 4096) rfl s kk⟩)
          * signW m c (ix2 ⟨s.val * 256 + kk.val, group_lt (K := 4096) rfl s kk⟩ q) := by
  have hP := P.isLt
  have hs := s.isLt
  have hN : 16 * (P.val / 1024) + s.val < cfg0.N := by rw [show cfg0.N = 128 from N_0]; omega
  have hd : (16 * (P.val / 1024) + s.val) / 16 = P.val / 1024 := by omega
  have hm : (16 * (P.val / 1024) + s.val) % 16 = s.val := by omega
  unfold addend
  rw [dif_pos hN]
  refine Finset.sum_congr rfl fun kk _ => ?_
  exact congrArg₂ (· * ·)
    (x_tile_apply m c ⟨_, hN⟩ (i 0) kk _
      (by show P.val = (16 * (P.val / 1024) + s.val) / 16 * 1024 + (i 0).val; rw [hd, hi0]; omega)
      (by show s.val * 256 + kk.val = (16 * (P.val / 1024) + s.val) % 16 * 256 + kk.val; rw [hm]))
    (sign_tile_apply m c ⟨_, hN⟩ kk (i 1) _
      (by show s.val * 256 + kk.val = (16 * (P.val / 1024) + s.val) % 16 * 256 + kk.val; rw [hm])
      (by show q.val = (i 1).val; rw [hi1]))

/-- THE KERNEL'S RESULT at entry `(P, q)`: the full contraction of row `P` of `x` with column `q` of `sign W`. -/
theorem G2_apply (c : Dev nD) (P : Fin 8192) (q : Fin 4096) :
    (G2 (F := Ideal) m c : S8192x4096.Idx → EReal) (ix2 P q)
      = ∑ k : Fin 4096, xArr m c (ix2 P k)
          * signW m c (ix2 k q) := by
  have hP := P.isLt
  have hq := q.isLt
  have hr : run2Of (ix2 P q) = P.val / 1024 := by
    show 1 * (P.val / 1024 - 0) + 1 * (q.val / 4096 - 0) = _
    omega
  have hlt : 16 * run2Of (ix2 P q) + 15 < cfg0.N := by rw [hr, show cfg0.N = 128 from N_0]; omega
  have key : (Pipeline.accAt (reset2 m c) (step2 m c) (16 * run2Of (ix2 P q)) 15 hlt : S1024x4096.Idx → EReal) (loc2Of (ix2 P q))
      = ∑ k : Fin 4096, xArr m c (ix2 P k) * signW m c (ix2 k q) := by
    rw [fold_apply m c _ hlt, zero_add, Finset.sum_range, sum_groups (J := 16) (B := 256) (K := 4096) rfl]
    refine Finset.sum_congr rfl fun s _ => ?_
    rw [hr]
    exact addend_apply m c P q s (loc2Of (ix2 P q)) rfl (by show q.val % 4096 = q.val; omega)
  unfold G2
  dsimp only
  rw [dif_pos hlt]
  exact key

end SignMatmul

end
-- ==== Proof.RefValue.lean ====
/-
  The reference's result at an entry.

  The reference is one matrix product of `x` (8192×4096) with `sign W` (4096×4096), contracting the columns of the
  first with the rows of the second. On the extended reals its entry `(P, q)` is the textbook sum
  `∑ k < 4096, x (P, k) * sign W (k, q)`, whatever the order in which the host adds the terms.
-/
import proofs.«178585_j45784351375737_2_alg».proof.Proof.Gen.ReferenceIdeal
import proofs.«178585_j45784351375737_2_alg».proof.Proof.LibPlainDot

noncomputable section

namespace SignMatmul

open Idealize.ShloMosaic Idealize.ShloMosaic.ValueIdx

/-- The reference product's dimension numbers are the plain ones. -/
theorem ref_dims : Cert.ReferenceIdeal.dot_S8192x4096_S4096x4096_S8192x4096_1_0_0_1_n_n = DotDims.plain 8192 4096 4096 := rfl

/-- The reference's product at entry `(P, q)`: the full contraction. -/
theorem ref_apply (X : FVec Ideal ⟨2, ![8192, 4096]⟩ .f32) (S : FVec Ideal ⟨2, ![4096, 4096]⟩ .f32) (P : Fin 8192) (q : Fin 4096) :
    Host.dotGeneral Cert.ReferenceIdeal.dot_S8192x4096_S4096x4096_S8192x4096_1_0_0_1_n_n none X S (ix2 P q)
      = ∑ k : Fin 4096, X (ix2 P k) * S (ix2 k q) :=
  Gcn.Lib.plain_dotGeneral_apply (M := 8192) (K := 4096) (N := 4096) X S none _ P q

end SignMatmul

end
-- ==== Proof.Bridge.lean ====
/-
  The two results are one function of the inputs.

  At every entry `(P, q)` the reference's product and the array the kernel leaves are both
  `∑ k < 4096, x (P, k) * sign W (k, q)`: the reference in one contraction, the kernel as 16 partial sums of 256 terms
  added into a zeroed tile. The two differ only in how the 4096 terms are grouped, and addition on the extended reals
  is associative and commutative, so they agree for every input — no finiteness is used.
-/
import proofs.«178585_j45784351375737_2_alg».proof.Proof.KernelValue
import proofs.«178585_j45784351375737_2_alg».proof.Proof.RefValue

noncomputable section

namespace SignMatmul

open Idealize.ShloMosaic Idealize.ShloMosaic.ValueIdx Idealize.ShloMosaic.TcCoe Idealize.SL.Sem
open Cert.KernelIdeal Cert.KernelIdeal.Gen

/-- The reference's product of `x` with `sign W` is the array the kernel leaves. -/
theorem result_eq (m : (ℓ : Loc nD τ sig) → Buf (Elt Ideal) ℓ) (c : Dev nD) :
    Host.dotGeneral (F := Ideal) (φ₁ := .f32) (φ₂ := .f32) Cert.ReferenceIdeal.dot_S8192x4096_S4096x4096_S8192x4096_1_0_0_1_n_n none
        (xArr m c : FVec Ideal S8192x4096 .f32) (signW m c : FVec Ideal S4096x4096 .f32)
      = (Cert.KernelIdeal.Value.G2 (F := Ideal) m c : S8192x4096.Idx → EReal) := by
  funext i
  obtain ⟨P, q, rfl⟩ : ∃ (P : Fin 8192) (q : Fin 4096), i = ix2 P q := ⟨i 0, i 1, eq_ix2 i⟩
  exact (ref_apply _ _ P q).trans (G2_apply m c P q).symm

end SignMatmul

end
-- ==== Proof.lean ====
/-
  `y = x · sign W` for `x` of 8192×4096 and `W` of 4096×4096.

  The kernel first replaces `W` by its sign, then runs an 8 × 16 grid: point `(i, k)` multiplies the 1024×256 tile
  `(i, k)` of `x` with the 256×4096 tile `k` of `sign W` and adds the product into output row block `i`, which the
  point `k = 0` has reset to zero. The reference is one product of `x` with `sign W`. On the extended reals both
  leave, at entry `(P, q)`, the sum `∑ k < 4096, x (P, k) * sign W (k, q)` — the kernel as 16 groups of 256 terms —
  and regrouping a finite sum needs only associativity and commutativity, so the two agree for every input
  (`SignMatmul.result_eq`). The idealization rewrites nothing, so that conjunct is trivial; the three runs terminate
  without fault and leave the arguments as they were by the programs' run theorems.
-/
import proofs.«178585_j45784351375737_2_alg».proof.Defs
import proofs.«178585_j45784351375737_2_alg».proof.Proof.Gen.Kernel.Frame
import proofs.«178585_j45784351375737_2_alg».proof.Proof.Gen.KernelIdeal.Value
import proofs.«178585_j45784351375737_2_alg».proof.Proof.Gen.Pre_finite_inputs
import proofs.«178585_j45784351375737_2_alg».proof.Proof.Gen.ReferenceIdeal.Run
import proofs.«178585_j45784351375737_2_alg».proof.Proof.Bridge
import Idealize.ShloMosaic.Adequacy
import Idealize.ShloMosaic.Init

noncomputable section

namespace Cert.Proof

open Idealize.ShloMosaic Idealize.SL.Sem

/-- The idealized kernel's run, with its result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference's run, with its result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `x` and `W`, the kernel leaves the grouped sum and the reference the full
    contraction: one function of the inputs. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact SignMatmul.result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
